-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x4096 : Shape := ⟨2, ![32768, 4096]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S32768x4096 : Shape := ⟨2, ![32768, 4096]⟩
abbrev S64x4096 : Shape := ⟨2, ![64, 4096]⟩
abbrev S32768x64 : Shape := ⟨2, ![32768, 64]⟩
abbrev S512x4096 : Shape := ⟨2, ![512, 4096]⟩
abbrev S512x64 : Shape := ⟨2, ![512, 64]⟩

abbrev nBuf : Space → Nat
  | .hbm => 3
  | .vmem => 5
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S32768x64, .f32⟩
  | .local _ .vmem, ⟨0, _⟩ => ⟨S512x4096, .f32⟩
  | .local _ .vmem, ⟨1, _⟩ => ⟨S512x4096, .f32⟩
  | .local _ .vmem, ⟨2, _⟩ => ⟨S64x4096, .f32⟩
  | .local _ .vmem, ⟨3, _⟩ => ⟨S512x64, .f32⟩
  | .local _ .vmem, ⟨4, _⟩ => ⟨S512x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  inb_S64x4096_S64x4096_0_0 : ∀ a, (![0, 0] : Fin 2 → Nat) a + S64x4096.size a ≤ S64x4096.size a
  h_S64x4096 : 0 < S64x4096.numel
  inb_S512x64_S512x64_0_0 : ∀ a, (![0, 0] : Fin 2 → Nat) a + S512x64.size a ≤ S512x64.size a
  h_S512x64 : 0 < S512x64.numel
  dot_S512x4096_S64x4096_S512x64_1_1_0_0_n_n_wf : DotDims.WF S512x4096 S64x4096 S512x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S32768x64.size a
  hwx0_2 : ∀ i : grid0.Coords, EltTy.bits .f32 = 32 ∨ (Rect.block (s := S32768x64) S512x64.size (cc0_transform_2 i) (hinb0_2 i)).WholeWords (EltTy.packing .f32)

variable [Facts₀]

def dot_S512x4096_S64x4096_S512x64_1_1_0_0_n_n : DotDims S512x4096 S64x4096 S512x64 where
  lhsContracting := [1]
  rhsContracting := [1]
  lhsNonContracting := [0]
  rhsNonContracting := [0]
  lhsBatch := []
  rhsBatch := []
  wf := dot_S512x4096_S64x4096_S512x64_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | .hbm, ⟨4, _⟩ => ⟨S_, .f32⟩
  | .hbm, ⟨5, _⟩ => ⟨S32768x64, .f32⟩
  | .hbm, ⟨6, _⟩ => ⟨S32768x64, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S64x4096_S4096x64_1_0 : S64x4096.Transposes [1, 0] S4096x64
  bcast_S_S32768x64 : S_.BroadcastsInDim S32768x64 (![] : Fin 0 → Fin S32768x64.rank)
  dot_S32768x4096_S4096x64_S32768x64_1_0_0_1_n_n_wf : DotDims.WF S32768x4096 S4096x64 S32768x64 [1] [0] [0] [1] [] []

variable [Facts₀]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf

class Facts : Prop extends Facts₀ where

variable [Facts]
-- ==== Proof.RowProduct.lean ====
/-
  The matrix of row-by-row inner products, as ONE function of the two argument arrays, index by index, on the
  extended reals.

  For a matrix `x` of 32768 rows and 4096 columns and a matrix `w` of 64 rows and 4096 columns, entry `(r, e)` of
  the result is the inner product of row `r` of `x` with row `e` of `w`:

      rowProduct x w (r, e) = ∑ k < 4096, x (r, k) * w (e, k),

  that is, the matrix product of `x` with the transpose of `w`.

  Both programs compute this sum. One forms it block by block (512 rows of `x` at a time) as a matrix product that
  contracts the column axis of both operands into a zero accumulator. The other transposes `w`, takes the plain
  matrix product and divides every entry by the literal `1.0`; on the extended reals the quotient by one is the
  identity at every value, the two infinities included (`div_by_one`), so no finiteness of the inputs is used.
-/
import Idealize.ShloMosaic.PureOps.Ideal
import Idealize.ShloMosaic.PureOps.Ideal.Laws
import Idealize.ShloMosaic.Lib.ValueIdx

noncomputable section

namespace Cert.RowProduct

open Idealize.ShloMosaic Idealize.ShloMosaic.ValueIdx

/-- Entry `(r, e)` of the product of `x` with the transpose of `w`: the inner product, over the 4096 columns, of
    row `r` of `x` with row `e` of `w`. -/
def rowProduct (x : (⟨2, ![32768, 4096]⟩ : Shape).Idx → EReal) (w : (⟨2, ![64, 4096]⟩ : Shape).Idx → EReal) :
    (⟨2, ![32768, 64]⟩ : Shape).Idx → EReal :=
  fun i => ∑ k : Fin 4096, x (ix2 (i 0) k) * w (ix2 (i 1) k)

/-- The single-precision word `0x3F800000` (sign 0, biased exponent 127, zero fraction) is the number one. -/
theorem word_one : Ideal.ofBits .f32 0x3F800000#32 = 1 := by
  simp [Ideal.ofBits, Ideal.ieee, -EReal.coe_mul]; norm_num

/-- The quotient of an extended real by one is that extended real: the divisor is not zero, so the quotient is the
    product with the inverse of one, which is one. Nothing is asked of `x`: it may be infinite. -/
theorem div_by_one (x : EReal) : Ideal.div x (Ideal.ofBits .f32 0x3F800000#32) = x := by
  rw [word_one, ← EReal.coe_one, Ideal.div_coe one_ne_zero, one_div, inv_one, EReal.coe_one, mul_one]

end Cert.RowProduct

end
-- ==== Proof.Reference.lean ====
/-
  The second program's result is the matrix of row-by-row inner products.

  That program transposes `w` (entry `(k, e)` of the transpose is entry `(e, k)` of `w`), multiplies `x` by the
  transpose (entry `(r, e)` is the sum over `k` of `x (r, k)` times the transpose at `(k, e)`), and divides every
  entry by the literal one. Read at an index, the transposed operand at `(k, e)` is `w (e, k)`, so the sum is the
  inner product of row `r` of `x` with row `e` of `w`; the quotient by one changes nothing.
-/
import proofs.«161031_g47579647705117_cont_8to1_c_384_15_alg».proof.Proof.Gen.ReferenceIdeal.Read
import proofs.«161031_g47579647705117_cont_8to1_c_384_15_alg».proof.Proof.RowProduct

noncomputable section

namespace Cert.RowProduct.Reference

open Cert.ReferenceIdeal Cert.ReferenceIdeal.Read Idealize.ShloMosaic Idealize.ShloMosaic.ValueIdx

/-- The left operand of the product is read at row `r`, column `k`. -/
theorem left_index (i : S32768x64.Idx) (k : Fin 4096) : lidx_main_v1 i k = ix2 (i 0) k :=
  funext fun a => by match a with | ⟨0, _⟩ => rfl | ⟨1, _⟩ => rfl

/-- The transposed right operand at `(k, e)` is `w` at row `e`, column `k`. -/
theorem right_index (i : S32768x64.Idx) (k : Fin 4096) : idx_main_v0 (ridx_main_v1 i k) = ix2 (i 1) k :=
  funext fun a => by match a with | ⟨0, _⟩ => rfl | ⟨1, _⟩ => rfl

/-- The product with the transpose, divided by one, is the matrix of row-by-row inner products. -/
theorem result_eq (x : (⟨S32768x4096, .f32⟩ : BufTy).Contents (Elt Ideal)) (w : (⟨S64x4096, .f32⟩ : BufTy).Contents (Elt Ideal)) :
    val_main_v3 (F := Ideal) x w = rowProduct x w := by
  funext i
  rw [val_main_v3_apply, val_main_v1_apply, val_main_v2_apply, val_main_cst_apply]
  simp only [val_main_v0_apply, left_index, right_index, Ideal.hostDivf_def, Ideal.ofBits_def]
  exact div_by_one _

end Cert.RowProduct.Reference

end
-- ==== Proof.Block.lean ====
/-
  One block of the first program's result, read at an entry.

  At a grid point the body loads a block `a` of 512 rows of `x` (all 4096 columns) and the whole of `w` as `b`
  (64 rows, 4096 columns), and stores their matrix product contracted over the column axis of BOTH operands, into
  a zero accumulator. On the extended reals the accumulator contributes `0`, and entry `(p, q)` of the stored block
  is the sum over the contracted column `k` of `a (p, k) * b (q, k)`: the left operand is read at the output's row
  and the contracted column, the right operand at the output's COLUMN (as its row) and the contracted column.
-/
import proofs.«161031_g47579647705117_cont_8to1_c_384_15_alg».proof.Proof.Gen.KernelIdeal.Skeleton
import Idealize.ShloMosaic.PureOps.Ideal.Laws
import Idealize.ShloMosaic.Lib.ValueIdx

noncomputable section

namespace Cert.RowProduct.Block

open Cert.KernelIdeal Cert.KernelIdeal.Gen Idealize.ShloMosaic Idealize.ShloMosaic.ValueIdx

/-- The left operand's row is the output's row (its axis 0 is not contracted). -/
theorem left_row (i : S512x64.Idx) (q : dot_S512x4096_S64x4096_S512x64_1_1_0_0_n_n.contr.Idx) :
    (dot_S512x4096_S64x4096_S512x64_1_1_0_0_n_n.lhsIdx i q 0).val = (i 0).val := by
  unfold DotDims.lhsIdx
  rw [dif_neg (show ¬(0 : Fin S512x4096.rank) ∈ dot_S512x4096_S64x4096_S512x64_1_1_0_0_n_n.lhsBatch by decide), dif_pos (show (0 : Fin S512x4096.rank) ∈ dot_S512x4096_S64x4096_S512x64_1_1_0_0_n_n.lhsNonContracting by decide)]
  rfl

/-- The left operand's column is the contracted index. -/
theorem left_col (i : S512x64.Idx) (q : dot_S512x4096_S64x4096_S512x64_1_1_0_0_n_n.contr.Idx) :
    (dot_S512x4096_S64x4096_S512x64_1_1_0_0_n_n.lhsIdx i q 1).val = (q ⟨0, by decide⟩).val :=
  dot_S512x4096_S64x4096_S512x64_1_1_0_0_n_n.lhsIdx_val_of_single rfl i q

/-- The right operand's row is the output's column (its axis 0 is not contracted, and is the output's second axis). -/
theorem right_row (i : S512x64.Idx) (q : dot_S512x4096_S64x4096_S512x64_1_1_0_0_n_n.contr.Idx) :
    (dot_S512x4096_S64x4096_S512x64_1_1_0_0_n_n.rhsIdx i q 0).val = (i 1).val := by
  unfold DotDims.rhsIdx
  rw [dif_neg (show ¬(0 : Fin S64x4096.rank) ∈ dot_S512x4096_S64x4096_S512x64_1_1_0_0_n_n.rhsBatch by decide), dif_pos (show (0 : Fin S64x4096.rank) ∈ dot_S512x4096_S64x4096_S512x64_1_1_0_0_n_n.rhsNonContracting by decide)]
  rfl

/-- The right operand's column is the contracted index. -/
theorem right_col (i : S512x64.Idx) (q : dot_S512x4096_S64x4096_S512x64_1_1_0_0_n_n.contr.Idx) :
    (dot_S512x4096_S64x4096_S512x64_1_1_0_0_n_n.rhsIdx i q 1).val = (q ⟨0, by decide⟩).val :=
  dot_S512x4096_S64x4096_S512x64_1_1_0_0_n_n.rhsIdx_val_of_single rfl i q

/-- Entry `(p, q)` of the stored block is the inner product of row `p` of the left block with row `q` of the right
    block. -/
theorem entry (a : FVec Ideal S512x4096 .f32) (b : FVec Ideal S64x4096 .f32) (p : Fin 512) (q : Fin 64) :
    k0_pay1 (F := Ideal) a b (ix2 p q) = ∑ k : Fin 4096, a (ix2 p k) * b (ix2 q k) := by
  unfold k0_pay1
  simp only [matmul]
  rw [Ideal.matmul_constant_zero_apply, ← Equiv.sum_comp (contrEquiv1 dot_S512x4096_S64x4096_S512x64_1_1_0_0_n_n 4096 rfl rfl).symm]
  refine Finset.sum_congr rfl fun k _ => ?_
  have hk := contrEquiv1_symm_val dot_S512x4096_S64x4096_S512x64_1_1_0_0_n_n 4096 rfl rfl k
  have el : dot_S512x4096_S64x4096_S512x64_1_1_0_0_n_n.lhsIdx (ix2 p q) ((contrEquiv1 dot_S512x4096_S64x4096_S512x64_1_1_0_0_n_n 4096 rfl rfl).symm k) = ix2 p k := funext fun d => Fin.ext (by
    match d with
    | ⟨0, _⟩ => exact left_row _ _
    | ⟨1, _⟩ => exact (left_col _ _).trans hk)
  have er : dot_S512x4096_S64x4096_S512x64_1_1_0_0_n_n.rhsIdx (ix2 p q) ((contrEquiv1 dot_S512x4096_S64x4096_S512x64_1_1_0_0_n_n 4096 rfl rfl).symm k) = ix2 q k := funext fun d => Fin.ext (by
    match d with
    | ⟨0, _⟩ => exact right_row _ _
    | ⟨1, _⟩ => exact (right_col _ _).trans hk)
  rw [el, er]

end Cert.RowProduct.Block

end
-- ==== Proof.Array.lean ====
/-
  From blocks to the whole array: after the first program's run its result array is the matrix of row-by-row inner
  products of the two argument arrays.

  The grid has 64 points. At point `t` the first operand's block is rows `512 t … 512 t + 511` of `x` (all
  columns), the second operand's block is the whole of `w` at every point, and the result's block is rows
  `512 t … 512 t + 511` of the result (all 64 columns). So what point `t` writes back, entry `(p, q)` of its
  block, is the inner product of row `512 t + p` of `x` with row `q` of `w` — block `t` of the one whole-array
  function `rowProduct x w`. Every row `r` of the result lies in the block of point `r / 512`, so the blocks
  cover the array and the array ends holding that function.
-/
import proofs.«161031_g47579647705117_cont_8to1_c_384_15_alg».proof.Proof.Gen.KernelIdeal.Value
import proofs.«161031_g47579647705117_cont_8to1_c_384_15_alg».proof.Proof.RowProduct
import proofs.«161031_g47579647705117_cont_8to1_c_384_15_alg».proof.Proof.Block

noncomputable section

namespace Cert.RowProduct.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The origin of a rank-2 rectangle. -/
theorem origin : (![0, 0] : Fin 2 → Nat) = fun _ => 0 := funext fun a => by fin_cases a <;> rfl

/-- The three index maps over the 64 grid points: the first operand's and the result's blocks are at block row `t`,
    block column `0`; the second operand's block is always block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row `0 … 63` of the result is some grid point's. -/
theorem block_onto : ∀ b : Fin 64, ∃ t : Fin cfg0.N, win0_2.index t = ![b.val, 0] :=
  (by decide +kernel : ∀ b : Fin 64, ∃ t : Fin grid0.N, win0_2.index t = ![b.val, 0])

/-- What point `t` writes back is block `t` of the row-by-row inner products of the argument arrays. -/
theorem flushed_eq (c : Dev nD) (t : Fin cfg0.N) :
    (dats m 0 c).flushed 2 t
      = ((cfg0.win 2).blk t).view.read (Elt Ideal) (rowProduct (V m c main_arg0) (V m c main_arg1)) := by
  rw [Cert.KernelIdeal.Value.flushed2]
  unfold out0_2
  rw [View.canon_unit_zero origin]
  simp only [View.ld_unit_zero (S := S512x4096) origin, View.ld_unit_zero (S := S64x4096) origin]
  obtain ⟨e00, e01, e10, e11, e20, e21⟩ := block_indices t
  funext j
  obtain ⟨p, q, rfl⟩ : ∃ (p : Fin 512) (q : Fin 64), j = ix2 p q := ⟨j 0, j 1, eq_ix2 j⟩
  -- row `p` of the first operand's block is row `512 t + p` of `x`, the result block's own row
  have hx : ∀ k : Fin 4096, iblk m c 0 t (ix2 p k)
      = V m c main_arg0 (ix2 ((((cfg0.win 2).blk t).view.emb (ix2 p q)) 0) k) := fun k => by
    show V m c main_arg0 (((cfg0.win 0).blk t).view.emb (ix2 p k)) = V m c main_arg0 _
    refine congrArg _ (funext fun a => Fin.ext ?_)
    match a with
    | ⟨0, _⟩ =>
      show win0_0.index t (0 : Fin 2) * 512 + 1 * p.val = win0_2.index t (0 : Fin 2) * 512 + 1 * p.val
      omega
    | ⟨1, _⟩ =>
      show win0_0.index t (1 : Fin 2) * 4096 + 1 * k.val = k.val
      omega
  -- row `q` of the second operand's block is row `q` of `w`, and `q` is the result block's own column
  have hw : ∀ k : Fin 4096, iblk m c 1 t (ix2 q k)
      = V m c main_arg1 (ix2 ((((cfg0.win 2).blk t).view.emb (ix2 p q)) 1) k) := fun k => by
    show V m c main_arg1 (((cfg0.win 1).blk t).view.emb (ix2 q k)) = V m c main_arg1 _
    refine congrArg _ (funext fun a => Fin.ext ?_)
    match a with
    | ⟨0, _⟩ =>
      show win0_1.index t (0 : Fin 2) * 64 + 1 * q.val = win0_2.index t (1 : Fin 2) * 64 + 1 * q.val
      omega
    | ⟨1, _⟩ =>
      show win0_1.index t (1 : Fin 2) * 4096 + 1 * k.val = k.val
      omega
  show k0_pay1 (F := Ideal) (iblk m c 0 t) (iblk m c 1 t) (ix2 p q)
    = rowProduct (V m c main_arg0) (V m c main_arg1) (((cfg0.win 2).blk t).view.emb (ix2 p q))
  refine (Block.entry (iblk m c 0 t) (iblk m c 1 t) p q).trans ?_
  unfold rowProduct
  exact Finset.sum_congr rfl fun k _ => congrArg₂ (· * ·) (hx k) (hw k)

/-- An index of the result array is in point `t`'s block iff each coordinate is in the block's range on its axis. -/
theorem mem_block (t : Fin cfg0.N) (i : S32768x64.Idx) :
    i ∈ ((cfg0.win 2).blk t).view.set ↔ ∀ a : Fin 2, win0_2.index t a * S512x64.size a ≤ (i a).val
      ∧ (i a).val < win0_2.index t a * S512x64.size a + S512x64.size a := by
  show i ∈ ((View.whole main_v0).slice (win0_2.rect t)).set ↔ _
  rw [View.set_slice_whole, Rect.mem_set_unit]
  exact Iff.rfl

/-- The blocks cover the result array: row `r` lies in the block of the point whose block row is `r / 512`. -/
theorem cover (i : S32768x64.Idx) :
    ∃ t : Fin cfg0.N, (cfg0.win 2).flush t = true ∧ i ∈ ((cfg0.win 2).blk t).view.set := by
  have hi0 : (i 0).val < 32768 := (i 0).isLt
  have hi1 : (i 1).val < 64 := (i 1).isLt
  obtain ⟨t, ht⟩ := block_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 64 ≤ (i 1).val ∧ (i 1).val < win0_2.index t (1 : Fin 2) * 64 + 64
    omega

/-- The result array after the run is the matrix of row-by-row inner products of the argument arrays. -/
theorem final (c : Dev nD) :
    (dats m 0 c).arrAt 2 cfg0.N
      = rowProduct (m ((c : Thread nD τ).loc main_arg0)) (m ((c : Thread nD τ).loc main_arg1)) :=
  (dats m 0 c).arrAt_eq_of_cover 2 (rowProduct (V m c main_arg0) (V m c main_arg1))
    (fun t _ => flushed_eq m c t) cover

/-- Every weakly fair execution of the first program ends with its result array at the row-by-row inner products of
    its argument arrays, and the argument arrays unchanged. -/
theorem run : θ_run defs (onTc (τ := τ) (main (F := Ideal))) ⟨m, fun _ => 0, ρ⟩ fun r => ∀ c : Dev nD,
      r.2.mem ((c : Thread nD τ).loc main_v0)
        = rowProduct (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.RowProduct.Kernel

end
-- ==== Proof.lean ====
/-
  Two programs that multiply a matrix `x` (32768 rows, 4096 columns) by the transpose of a matrix `w` (64 rows,
  4096 columns) give the same result on the extended reals.

  The result, 32768 rows by 64 columns, has at `(r, e)` the inner product of row `r` of `x` with row `e` of `w`
  (Proof/RowProduct.lean, `rowProduct`).
  * The first program walks a grid of 64 points; at point `t` it takes rows `512 t … 512 t + 511` of `x` and the
    whole of `w`, and writes their matrix product, contracted over the column axis of both operands into a zero
    accumulator, to the same rows of the result. One stored entry is an inner product of two rows
    (Proof/Block.lean); the 64 blocks are disjoint bands of rows that cover the result (Proof/Array.lean).
  * The second program transposes `w`, forms the plain product of `x` with the transpose, and divides every entry
    by the literal one. The transpose read at `(k, e)` is `w (e, k)`, and the quotient by one is the identity on
    every extended real, infinite ones included (Proof/Reference.lean).
  Both sums run over the same products `x (r, k) * w (e, k)`, `k < 4096`, so the results are equal entry by entry.
  No algebraic law that could fail at an infinity is used, and the hypothesis that the inputs are finite is never
  opened.

  The three termination-and-frame claims are the generated frame runs (for the second program, its generated run
  with the result dropped). No operation was rewritten in passing from the word-level program to its idealization,
  so that claim is `True`.
-/
import proofs.«161031_g47579647705117_cont_8to1_c_384_15_alg».proof.Defs
import proofs.«161031_g47579647705117_cont_8to1_c_384_15_alg».proof.Proof.Gen.Kernel
import proofs.«161031_g47579647705117_cont_8to1_c_384_15_alg».proof.Proof.Gen.Kernel.Skeleton
import proofs.«161031_g47579647705117_cont_8to1_c_384_15_alg».proof.Proof.Gen.Kernel.Launch
import proofs.«161031_g47579647705117_cont_8to1_c_384_15_alg».proof.Proof.Gen.Kernel.Points
import proofs.«161031_g47579647705117_cont_8to1_c_384_15_alg».proof.Proof.Gen.Kernel.Frame
import proofs.«161031_g47579647705117_cont_8to1_c_384_15_alg».proof.Proof.Gen.KernelIdeal
import proofs.«161031_g47579647705117_cont_8to1_c_384_15_alg».proof.Proof.Gen.KernelIdeal.Skeleton
import proofs.«161031_g47579647705117_cont_8to1_c_384_15_alg».proof.Proof.Gen.KernelIdeal.Launch
import proofs.«161031_g47579647705117_cont_8to1_c_384_15_alg».proof.Proof.Gen.KernelIdeal.Points
import proofs.«161031_g47579647705117_cont_8to1_c_384_15_alg».proof.Proof.Gen.KernelIdeal.Frame
import proofs.«161031_g47579647705117_cont_8to1_c_384_15_alg».proof.Proof.Gen.ReferenceIdeal
import proofs.«161031_g47579647705117_cont_8to1_c_384_15_alg».proof.Proof.Gen.Pre_finite_inputs
import proofs.«161031_g47579647705117_cont_8to1_c_384_15_alg».proof.Proof.Gen.KernelIdeal.Value
import proofs.«161031_g47579647705117_cont_8to1_c_384_15_alg».proof.Proof.Gen.ReferenceIdeal.Run
import proofs.«161031_g47579647705117_cont_8to1_c_384_15_alg».proof.Proof.Gen.ReferenceIdeal.Read
import proofs.«161031_g47579647705117_cont_8to1_c_384_15_alg».proof.Proof.RowProduct
import proofs.«161031_g47579647705117_cont_8to1_c_384_15_alg».proof.Proof.Reference
import proofs.«161031_g47579647705117_cont_8to1_c_384_15_alg».proof.Proof.Block
import proofs.«161031_g47579647705117_cont_8to1_c_384_15_alg».proof.Proof.Array
import Idealize.ShloMosaic.Adequacy
import Idealize.ShloMosaic.Init

noncomputable section

namespace Cert.Proof

open Idealize.ShloMosaic Idealize.SL.Sem

/-- The word-level first program terminates, faults nowhere and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the second program: its run, with what it says about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten between the word-level program and its idealization. -/
theorem preserves : Cert.preserves_Kernel_KernelIdeal := trivial

/-- From memories that agree on `x` and `w`, both programs end with the matrix of row-by-row inner products of
    `x` and `w` in their result arrays: the first by its 64 blocks, the second by its product with the transpose
    divided by one. -/
theorem algebraic : Cert.algebraic_KernelIdeal_ReferenceIdeal := by
  intro m ρ m' ρ' _ hagree
  refine ⟨_, Cert.RowProduct.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq (F := Ideal), Cert.RowProduct.Reference.result_eq,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
